-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x1 .f32) (main_arg9 : FVec F S1 .f32) (main_arg10 : FVec F S1 .f32) (main_arg11 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S32 .f32) (main_arg6 : FVec F S32x32 .f32) (main_arg7 : FVec F S32 .f32) (main_arg8 : FVec F S32x1 .f32) (main_arg9 : FVec F S1 .f32) (main_arg10 : FVec F S1 .f32) (main_arg11 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x32 .f32) (main_arg1 : IVec S2x3200000 32) (main_arg2 : FVec F S64x32 .f32) (main_arg3 : FVec F S32 .f32) (main_arg4 : FVec F S32x32 .f32) (main_arg5 : FVec F S32 .f32) (main_arg6 : FVec F S32x32 .f32) (main_arg7 : FVec F S32 .f32) (main_arg8 : FVec F S32x1 .f32) (main_arg9 : FVec F S1 .f32) (main_arg10 : FVec F S1 .f32) (main_arg11 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_v13 main_v16
-- ==== Kernel.lean ====
abbrev S100000x32 : Shape := ⟨2, ![100000, 32]⟩
abbrev S2x3200000 : Shape := ⟨2, ![2, 3200000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S1x1 : Shape := ⟨2, ![1, 1]⟩
abbrev S12800x32 : Shape := ⟨2, ![12800, 32]⟩
abbrev S12800x1 : Shape := ⟨2, ![12800, 1]⟩
abbrev S12800 : Shape := ⟨1, ![12800]⟩

abbrev nBuf : Space → Nat
  | .hbm => 44
  | .vmem => 17
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S100000x32, .bf16⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x32, .bf16⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x32, .bf16⟩
  | .hbm, ⟨35, _⟩ => ⟨S32x32, .f32⟩
  | .hbm, ⟨36, _⟩ => ⟨S32x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S1x1, .f32⟩
  | .hbm, ⟨41, _⟩ => ⟨S1x1, .f32⟩
  | .hbm, ⟨42, _⟩ => ⟨S1x1, .f32⟩
  | .hbm, ⟨43, _⟩ => ⟨S3200000x1, .f32⟩
  | .local _ .vmem, ⟨0, _⟩ => ⟨S12800x32, .bf16⟩
  | .local _ .vmem, ⟨1, _⟩ => ⟨S12800x32, .bf16⟩
  | .local _ .vmem, ⟨2, _⟩ => ⟨S12800x32, .bf16⟩
  | .local _ .vmem, ⟨3, _⟩ => ⟨S12800x32, .bf16⟩
  | .local _ .vmem, ⟨4, _⟩ => ⟨S32x32, .f32⟩
  | .local _ .vmem, ⟨5, _⟩ => ⟨S32x32, .f32⟩
  | .local _ .vmem, ⟨6, _⟩ => ⟨S1x32, .f32⟩
  | .local _ .vmem, ⟨7, _⟩ => ⟨S32x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S32x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S12800x1, .f32⟩
  | .local _ .vmem, ⟨16, _⟩ => ⟨S12800x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S12800x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S64x32_S32x32_0_0 : S64x32.Slices ![0, 0] S32x32
  slices_S64x32_S32x32_32_0 : S64x32.Slices ![32, 0] S32x32
  shapeCasts_S32_S1x32 : S32.ShapeCasts S1x32
  shapeCasts_S1_S1x1 : S1.ShapeCasts S1x1
  inb_S12800x32_S12800x32_0_0 : ∀ a, (![0, 0] : Fin 2 → Nat) a + S12800x32.size a ≤ S12800x32.size a
  h_S12800x32 : 0 < S12800x32.numel
  shapeCasts_S12800x32_S12800x32 : S12800x32.ShapeCasts S12800x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S12800x32 : S1x32.Broadcasts S12800x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S12800x1 : S1x1.Broadcasts S12800x1
  reduces_S12800x1_S12800 : S12800x1.Reduces [1] S12800
  shapeCasts_S12800_S12800x1 : S12800.ShapeCasts S12800x1
  inb_S12800x1_S12800x1_0_0 : ∀ a, (![0, 0] : Fin 2 → Nat) a + S12800x1.size a ≤ S12800x1.size a
  h_S12800x1 : 0 < S12800x1.numel
  gather_S100000x32_S3200000x1_S3200000x32_1_0_n_n_0_1_132_wf : GatherDims.WF S100000x32 S3200000x1 S3200000x32 [1] [0] [] [0] [] 1 ![1, 32]
  dot_S12800x32_S32x32_S12800x32_1_0_0_1_n_n_wf : DotDims.WF S12800x32 S32x32 S12800x32 [1] [0] [0] [1] [] []
  dot_S12800x32_S32x1_S12800x1_1_0_0_1_n_n_wf : DotDims.WF S12800x32 S32x1 S12800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x32.size a ≤ S3200000x32.size a
  hwx0_0 : ∀ i : grid0.Coords, EltTy.bits .bf16 = 32 ∨ (Rect.block (s := S3200000x32) S12800x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x32.size a ≤ S3200000x32.size a
  hwx0_1 : ∀ i : grid0.Coords, EltTy.bits .bf16 = 32 ∨ (Rect.block (s := S3200000x32) S12800x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .f32 = 32 ∨ (Rect.block (s := S32x1) S32x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S12800x1.size a ≤ S3200000x1.size a
  hwx0_13 : ∀ i : grid0.Coords, EltTy.bits .f32 = 32 ∨ (Rect.block (s := S3200000x1) S12800x1.size (cc0_transform_13 i) (hinb0_13 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S12800x32_S32x32_S12800x32_1_0_0_1_n_n : DotDims S12800x32 S32x32 S12800x32 where
  lhsContracting := [1]
  rhsContracting := [0]
  lhsNonContracting := [0]
  rhsNonContracting := [1]
  lhsBatch := []
  rhsBatch := []
  wf := dot_S12800x32_S32x32_S12800x32_1_0_0_1_n_n_wf
def dot_S12800x32_S32x1_S12800x1_1_0_0_1_n_n : DotDims S12800x32 S32x1 S12800x1 where
  lhsContracting := [1]
  rhsContracting := [0]
  lhsNonContracting := [0]
  rhsNonContracting := [1]
  lhsBatch := []
  rhsBatch := []
  wf := dot_S12800x32_S32x1_S12800x1_1_0_0_1_n_n_wf

abbrev win0_0 : Pipeline.Window sig grid0 :=
  Pipeline.Window.ofSpec (Memref.whole main_v11) S12800x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S12800x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S12800x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S3200000x64 : Shape := ⟨2, ![3200000, 64]⟩
abbrev S1x32 : Shape := ⟨2, ![1, 32]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x32, .f32⟩
  | .hbm, ⟨23, _⟩ => ⟨S1x3200000, .i32⟩
  | .hbm, ⟨24, _⟩ => ⟨S3200000, .i32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x32, .f32⟩
  | .hbm, ⟨34, _⟩ => ⟨S3200000x64, .f32⟩
  | .hbm, ⟨35, _⟩ => ⟨S3200000x32, .f32⟩
  | .hbm, ⟨36, _⟩ => ⟨S1x32, .f32⟩
  | .hbm, ⟨37, _⟩ => ⟨S3200000x32, .f32⟩
  | .hbm, ⟨38, _⟩ => ⟨S3200000x32, .f32⟩
  | .hbm, ⟨39, _⟩ => ⟨S_, .f32⟩
  | .hbm, ⟨40, _⟩ => ⟨S3200000x32, .f32⟩
  | .hbm, ⟨41, _⟩ => ⟨S3200000x32, .f32⟩
  | .hbm, ⟨42, _⟩ => ⟨S3200000x32, .f32⟩
  | .hbm, ⟨43, _⟩ => ⟨S1x32, .f32⟩
  | .hbm, ⟨44, _⟩ => ⟨S3200000x32, .f32⟩
  | .hbm, ⟨45, _⟩ => ⟨S3200000x32, .f32⟩
  | .hbm, ⟨46, _⟩ => ⟨S_, .f32⟩
  | .hbm, ⟨47, _⟩ => ⟨S3200000x32, .f32⟩
  | .hbm, ⟨48, _⟩ => ⟨S3200000x32, .f32⟩
  | .hbm, ⟨49, _⟩ => ⟨S3200000x32, .f32⟩
  | .hbm, ⟨50, _⟩ => ⟨S1x32, .f32⟩
  | .hbm, ⟨51, _⟩ => ⟨S3200000x32, .f32⟩
  | .hbm, ⟨52, _⟩ => ⟨S3200000x32, .f32⟩
  | .hbm, ⟨53, _⟩ => ⟨S_, .f32⟩
  | .hbm, ⟨54, _⟩ => ⟨S3200000x32, .f32⟩
  | .hbm, ⟨55, _⟩ => ⟨S3200000x32, .f32⟩
  | .hbm, ⟨56, _⟩ => ⟨S3200000x1, .f32⟩
  | .hbm, ⟨57, _⟩ => ⟨S1x1, .f32⟩
  | .hbm, ⟨58, _⟩ => ⟨S3200000x1, .f32⟩
  | .hbm, ⟨59, _⟩ => ⟨S3200000x1, .f32⟩
  | .hbm, ⟨60, _⟩ => ⟨S_, .f32⟩
  | .hbm, ⟨61, _⟩ => ⟨S3200000, .f32⟩
  | .hbm, ⟨62, _⟩ => ⟨S3200000x1, .f32⟩
  | .hbm, ⟨63, _⟩ => ⟨S_, .f32⟩
  | .hbm, ⟨64, _⟩ => ⟨S3200000x1, .f32⟩
  | .hbm, ⟨65, _⟩ => ⟨S3200000x1, .f32⟩
  | .hbm, ⟨66, _⟩ => ⟨S3200000x1, .f32⟩
  | .hbm, ⟨67, _⟩ => ⟨S3200000x1, .f32⟩
  | .hbm, ⟨68, _⟩ => ⟨S_, .f32⟩
  | .hbm, ⟨69, _⟩ => ⟨S3200000, .f32⟩
  | .hbm, ⟨70, _⟩ => ⟨S3200000x1, .f32⟩
  | .hbm, ⟨71, _⟩ => ⟨S_, .f32⟩
  | .hbm, ⟨72, _⟩ => ⟨S3200000x1, .f32⟩
  | .hbm, ⟨73, _⟩ => ⟨S3200000x1, .f32⟩
  | .hbm, ⟨74, _⟩ => ⟨S3200000x1, .f32⟩
  | .hbm, ⟨75, _⟩ => ⟨S_, .f32⟩
  | .hbm, ⟨76, _⟩ => ⟨S3200000x1, .f32⟩
  | .hbm, ⟨77, _⟩ => ⟨S3200000x1, .f32⟩
  | .hbm, ⟨78, _⟩ => ⟨S3200000x1, .f32⟩
  | .hbm, ⟨79, _⟩ => ⟨S3200000x1, .f32⟩
  | .hbm, ⟨80, _⟩ => ⟨S1x1, .f32⟩
  | .hbm, ⟨81, _⟩ => ⟨S3200000x1, .f32⟩
  | .hbm, ⟨82, _⟩ => ⟨S3200000x1, .f32⟩
  | .hbm, ⟨83, _⟩ => ⟨S1x1, .f32⟩
  | .hbm, ⟨84, _⟩ => ⟨S3200000x1, .f32⟩
  | .hbm, ⟨85, _⟩ => ⟨S3200000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  concatenates_S3200000x32_S3200000x32_S3200000x64_d1 : Shape.Concatenates [S3200000x32, S3200000x32] S3200000x64 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S_S3200000x1 : S_.BroadcastsInDim S3200000x1 (![] : Fin 0 → Fin S3200000x1.rank)
  gather_S100000x32_S3200000x1_S3200000x32_1_0_n_n_0_1_132_wf : GatherDims.WF S100000x32 S3200000x1 S3200000x32 [1] [0] [] [0] [] 1 ![1, 32]
  dot_S3200000x64_S64x32_S3200000x32_1_0_0_1_n_n_wf : DotDims.WF S3200000x64 S64x32 S3200000x32 [1] [0] [0] [1] [] []
  dot_S3200000x32_S32x32_S3200000x32_1_0_0_1_n_n_wf : DotDims.WF S3200000x32 S32x32 S3200000x32 [1] [0] [0] [1] [] []
  dot_S3200000x32_S32x1_S3200000x1_1_0_0_1_n_n_wf : DotDims.WF S3200000x32 S32x1 S3200000x1 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x64_S64x32_S3200000x32_1_0_0_1_n_n : DotDims S3200000x64 S64x32 S3200000x32 where
  lhsContracting := [1]
  rhsContracting := [0]
  lhsNonContracting := [0]
  rhsNonContracting := [1]
  lhsBatch := []
  rhsBatch := []
  wf := dot_S3200000x64_S64x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x1_S3200000x1_1_0_0_1_n_n : DotDims S3200000x32 S32x1 S3200000x1 where
  lhsContracting := [1]
  rhsContracting := [0]
  lhsNonContracting := [0]
  rhsNonContracting := [1]
  lhsBatch := []
  rhsBatch := []
  wf := dot_S3200000x32_S32x1_S3200000x1_1_0_0_1_n_n_wf

class Facts : Prop extends Facts₀ where

variable [Facts]
-- ==== Proof.HostSide.lean ====
/-
  The arrays the kernel's windows read, as the region finds them, in terms of the program's arguments.

  Before the region the program prepares: the two gathered feature arrays (the node features, rounded to a
  narrower float format — the identity on the extended reals —, gathered at the edge endpoints after negative
  indices are wrapped); the two halves of the first weight matrix, rows 0–31 and rows 32–63; and each bias,
  scale and shift vector viewed as a one-row matrix.  The two gathered arrays are, term for term, the reference
  program's own two gathered arrays; the others are read here at an index.
-/
import proofs.«176208_j45509473468804_2_alg».proof.Proof.Gen.KernelIdeal.Frame
import proofs.«176208_j45509473468804_2_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The two gathered feature arrays -/

/-- The features gathered at the edges' first endpoints are the reference's first gathered array of the same
    node features and edge list. -/
theorem gathered0 (c : Dev nD) :
    (V m c main_v11 : S3200000x32.Idx → EReal)
      = Cert.ReferenceIdeal.Read.val_main_v8 (F := Ideal) (m ((c : Thread nD τ).loc main_arg0)) (m ((c : Thread nD τ).loc main_arg1)) := by
  dsimp only [Gen.V, Gen.hostOps0]; after_results_simp; rfl

/-- The features gathered at the edges' second endpoints are the reference's second gathered array. -/
theorem gathered1 (c : Dev nD) :
    (V m c main_v18 : S3200000x32.Idx → EReal)
      = Cert.ReferenceIdeal.Read.val_main_v17 (F := Ideal) (m ((c : Thread nD τ).loc main_arg0)) (m ((c : Thread nD τ).loc main_arg1)) := by
  dsimp only [Gen.V, Gen.hostOps0]; after_results_simp; rfl

/-! ## The two halves of the first weight matrix -/

theorem upper_eq (c : Dev nD) :
    (V m c main_v19 : S32x32.Idx → EReal)
      = extractStridedSlice S32x32 ![0, 0] (m ((c : Thread nD τ).loc main_arg2)) slices_S64x32_S32x32_0_0 := by
  dsimp only [Gen.V, Gen.hostOps0]; after_results

theorem lower_eq (c : Dev nD) :
    (V m c main_v20 : S32x32.Idx → EReal)
      = extractStridedSlice S32x32 ![32, 0] (m ((c : Thread nD τ).loc main_arg2)) slices_S64x32_S32x32_32_0 := by
  dsimp only [Gen.V, Gen.hostOps0]; after_results

/-- Row `k` of the upper half is row `k` of the matrix. -/
theorem upper_apply (c : Dev nD) (k j : Fin 32) :
    (V m c main_v19 : S32x32.Idx → EReal) (ix2 k j)
      = ((m ((c : Thread nD τ).loc main_arg2)) : S64x32.Idx → EReal) (ix2 (⟨k.val, Nat.lt_of_lt_of_le k.isLt (by decide)⟩ : Fin 64) j) := by
  rw [upper_eq]
  exact slice2_axis0_apply 0 _ slices_S64x32_S32x32_0_0 k j _ (Nat.zero_add _).symm

/-- Row `k` of the lower half is row `32 + k` of the matrix. -/
theorem lower_apply (c : Dev nD) (k j : Fin 32) :
    (V m c main_v20 : S32x32.Idx → EReal) (ix2 k j)
      = ((m ((c : Thread nD τ).loc main_arg2)) : S64x32.Idx → EReal) (ix2 (⟨32 + k.val, Nat.add_lt_add_left k.isLt 32⟩ : Fin 64) j) := by
  rw [lower_eq]
  exact slice2_axis0_apply 32 _ slices_S64x32_S32x32_32_0 k j _ rfl

/-! ## The vectors viewed as one-row matrices -/

theorem bias1_eq (c : Dev nD) :
    (V m c main_v21 : S1x32.Idx → EReal) = shapeCast S1x32 (m ((c : Thread nD τ).loc main_arg3)) shapeCasts_S32_S1x32 := by
  dsimp only [Gen.V, Gen.hostOps0]; after_results; try rfl

theorem bias2_eq (c : Dev nD) :
    (V m c main_v22 : S1x32.Idx → EReal) = shapeCast S1x32 (m ((c : Thread nD τ).loc main_arg5)) shapeCasts_S32_S1x32 := by
  dsimp only [Gen.V, Gen.hostOps0]; after_results; try rfl

theorem bias3_eq (c : Dev nD) :
    (V m c main_v23 : S1x32.Idx → EReal) = shapeCast S1x32 (m ((c : Thread nD τ).loc main_arg7)) shapeCasts_S32_S1x32 := by
  dsimp only [Gen.V, Gen.hostOps0]; after_results; try rfl

theorem bias4_eq (c : Dev nD) :
    (V m c main_v24 : S1x1.Idx → EReal) = shapeCast S1x1 (m ((c : Thread nD τ).loc main_arg9)) shapeCasts_S1_S1x1 := by
  dsimp only [Gen.V, Gen.hostOps0]; after_results; try rfl

theorem scale_eq (c : Dev nD) :
    (V m c main_v25 : S1x1.Idx → EReal) = shapeCast S1x1 (m ((c : Thread nD τ).loc main_arg10)) shapeCasts_S1_S1x1 := by
  dsimp only [Gen.V, Gen.hostOps0]; after_results; try rfl

theorem shift_eq (c : Dev nD) :
    (V m c main_v26 : S1x1.Idx → EReal) = shapeCast S1x1 (m ((c : Thread nD τ).loc main_arg11)) shapeCasts_S1_S1x1 := by
  dsimp only [Gen.V, Gen.hostOps0]; after_results; try rfl

theorem bias1_apply (c : Dev nD) (u : Fin 1) (j : Fin 32) :
    (V m c main_v21 : S1x32.Idx → EReal) (ix2 u j) = ((m ((c : Thread nD τ).loc main_arg3)) : S32.Idx → EReal) (ix1 j) := by
  rw [bias1_eq]; exact shapeCast_a_1a_apply _ shapeCasts_S32_S1x32 u j

theorem bias2_apply (c : Dev nD) (u : Fin 1) (j : Fin 32) :
    (V m c main_v22 : S1x32.Idx → EReal) (ix2 u j) = ((m ((c : Thread nD τ).loc main_arg5)) : S32.Idx → EReal) (ix1 j) := by
  rw [bias2_eq]; exact shapeCast_a_1a_apply _ shapeCasts_S32_S1x32 u j

theorem bias3_apply (c : Dev nD) (u : Fin 1) (j : Fin 32) :
    (V m c main_v23 : S1x32.Idx → EReal) (ix2 u j) = ((m ((c : Thread nD τ).loc main_arg7)) : S32.Idx → EReal) (ix1 j) := by
  rw [bias3_eq]; exact shapeCast_a_1a_apply _ shapeCasts_S32_S1x32 u j

theorem bias4_apply (c : Dev nD) (u j : Fin 1) :
    (V m c main_v24 : S1x1.Idx → EReal) (ix2 u j) = ((m ((c : Thread nD τ).loc main_arg9)) : S1.Idx → EReal) (ix1 j) := by
  rw [bias4_eq]; exact shapeCast_a_1a_apply _ shapeCasts_S1_S1x1 u j

theorem scale_apply (c : Dev nD) (u j : Fin 1) :
    (V m c main_v25 : S1x1.Idx → EReal) (ix2 u j) = ((m ((c : Thread nD τ).loc main_arg10)) : S1.Idx → EReal) (ix1 j) := by
  rw [scale_eq]; exact shapeCast_a_1a_apply _ shapeCasts_S1_S1x1 u j

theorem shift_apply (c : Dev nD) (u j : Fin 1) :
    (V m c main_v26 : S1x1.Idx → EReal) (ix2 u j) = ((m ((c : Thread nD τ).loc main_arg11)) : S1.Idx → EReal) (ix1 j) := by
  rw [shift_eq]; exact shapeCast_a_1a_apply _ shapeCasts_S1_S1x1 u j

end Cert.KernelIdeal.Host

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.BodyOps.lean ====
/-
  The kernel body's operations that are not pointwise, read at an index of a 12 800-row block, over the
  extended reals.

  A matrix product into a zero accumulator is the plain sum over the contracted axis: entry `(p, j)` of
  `A · B` is `∑ k, A (p, k) * B (k, j)` (`mm32` for a 32 × 32 right factor, `mm1` for a 32 × 1 one).  The sum
  of an `a × 1` array along its second axis has one term per row, the row's only entry (`rowsum`).  A vector
  of per-row numbers viewed as an `a × 1` column, a `1 × 32` bias row repeated over the rows and a `1 × 1`
  scalar repeated over the rows read, at `(p, ·)`, the obvious entry.
-/
import proofs.«176208_j45509473468804_2_alg».proof.Proof.Gen.KernelIdeal.Skeleton
import proofs.«176208_j45509473468804_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Body

open Cert.KernelIdeal Idealize.ShloMosaic Idealize.ShloMosaic.ValueIdx

/-! ## The two matrix products -/

theorem lhs32_0 (i : S12800x32.Idx) (q : dot_S12800x32_S32x32_S12800x32_1_0_0_1_n_n.contr.Idx) :
    (dot_S12800x32_S32x32_S12800x32_1_0_0_1_n_n.lhsIdx i q 0).val = (i 0).val := by
  unfold DotDims.lhsIdx
  rw [dif_neg (show ¬(0 : Fin S12800x32.rank) ∈ dot_S12800x32_S32x32_S12800x32_1_0_0_1_n_n.lhsBatch by decide),
    dif_pos (show (0 : Fin S12800x32.rank) ∈ dot_S12800x32_S32x32_S12800x32_1_0_0_1_n_n.lhsNonContracting by decide)]
  rfl

theorem rhs32_1 (i : S12800x32.Idx) (q : dot_S12800x32_S32x32_S12800x32_1_0_0_1_n_n.contr.Idx) :
    (dot_S12800x32_S32x32_S12800x32_1_0_0_1_n_n.rhsIdx i q 1).val = (i 1).val := by
  unfold DotDims.rhsIdx
  rw [dif_neg (show ¬(1 : Fin S32x32.rank) ∈ dot_S12800x32_S32x32_S12800x32_1_0_0_1_n_n.rhsBatch by decide),
    dif_pos (show (1 : Fin S32x32.rank) ∈ dot_S12800x32_S32x32_S12800x32_1_0_0_1_n_n.rhsNonContracting by decide)]
  rfl

/-- Entry `(p, j)` of a 12800 × 32 by 32 × 32 product into a zero accumulator. -/
theorem mm32 (A : FVec Ideal S12800x32 .bf16) (B : FVec Ideal S32x32 .bf16) (p : Fin 12800) (j : Fin 32) :
    matmul dot_S12800x32_S32x32_S12800x32_1_0_0_1_n_n none A B (constant S12800x32 .f32 0x00000000#32) (ix2 p j)
      = ∑ k : Fin 32, A (ix2 p k) * B (ix2 k j) := by
  refine (Ideal.matmul_constant_zero_apply dot_S12800x32_S32x32_S12800x32_1_0_0_1_n_n none A B (ix2 p j)).trans ?_
  rw [← Equiv.sum_comp (contrEquiv1 dot_S12800x32_S32x32_S12800x32_1_0_0_1_n_n 32 rfl rfl).symm]
  refine Finset.sum_congr rfl fun k _ => ?_
  have hk := contrEquiv1_symm_val dot_S12800x32_S32x32_S12800x32_1_0_0_1_n_n 32 rfl rfl k
  have el : dot_S12800x32_S32x32_S12800x32_1_0_0_1_n_n.lhsIdx (ix2 p j)
      ((contrEquiv1 dot_S12800x32_S32x32_S12800x32_1_0_0_1_n_n 32 rfl rfl).symm k) = ix2 p k :=
    funext fun a => Fin.ext (by
      match a with
      | ⟨0, _⟩ => exact lhs32_0 _ _
      | ⟨1, _⟩ => exact (dot_S12800x32_S32x32_S12800x32_1_0_0_1_n_n.lhsIdx_val_of_single rfl _ _).trans hk)
  have er : dot_S12800x32_S32x32_S12800x32_1_0_0_1_n_n.rhsIdx (ix2 p j)
      ((contrEquiv1 dot_S12800x32_S32x32_S12800x32_1_0_0_1_n_n 32 rfl rfl).symm k) = ix2 k j :=
    funext fun a => Fin.ext (by
      match a with
      | ⟨0, _⟩ => exact (dot_S12800x32_S32x32_S12800x32_1_0_0_1_n_n.rhsIdx_val_of_single rfl _ _).trans hk
      | ⟨1, _⟩ => exact rhs32_1 _ _)
  rw [el, er]

theorem lhs1_0 (i : S12800x1.Idx) (q : dot_S12800x32_S32x1_S12800x1_1_0_0_1_n_n.contr.Idx) :
    (dot_S12800x32_S32x1_S12800x1_1_0_0_1_n_n.lhsIdx i q 0).val = (i 0).val := by
  unfold DotDims.lhsIdx
  rw [dif_neg (show ¬(0 : Fin S12800x32.rank) ∈ dot_S12800x32_S32x1_S12800x1_1_0_0_1_n_n.lhsBatch by decide),
    dif_pos (show (0 : Fin S12800x32.rank) ∈ dot_S12800x32_S32x1_S12800x1_1_0_0_1_n_n.lhsNonContracting by decide)]
  rfl

theorem rhs1_1 (i : S12800x1.Idx) (q : dot_S12800x32_S32x1_S12800x1_1_0_0_1_n_n.contr.Idx) :
    (dot_S12800x32_S32x1_S12800x1_1_0_0_1_n_n.rhsIdx i q 1).val = (i 1).val := by
  unfold DotDims.rhsIdx
  rw [dif_neg (show ¬(1 : Fin S32x1.rank) ∈ dot_S12800x32_S32x1_S12800x1_1_0_0_1_n_n.rhsBatch by decide),
    dif_pos (show (1 : Fin S32x1.rank) ∈ dot_S12800x32_S32x1_S12800x1_1_0_0_1_n_n.rhsNonContracting by decide)]
  rfl

/-- Entry `(p, u)` of a 12800 × 32 by 32 × 1 product into a zero accumulator. -/
theorem mm1 (A : FVec Ideal S12800x32 .bf16) (B : FVec Ideal S32x1 .bf16) (p : Fin 12800) (u : Fin 1) :
    matmul dot_S12800x32_S32x1_S12800x1_1_0_0_1_n_n none A B (constant S12800x1 .f32 0x00000000#32) (ix2 p u)
      = ∑ k : Fin 32, A (ix2 p k) * B (ix2 k u) := by
  refine (Ideal.matmul_constant_zero_apply dot_S12800x32_S32x1_S12800x1_1_0_0_1_n_n none A B (ix2 p u)).trans ?_
  rw [← Equiv.sum_comp (contrEquiv1 dot_S12800x32_S32x1_S12800x1_1_0_0_1_n_n 32 rfl rfl).symm]
  refine Finset.sum_congr rfl fun k _ => ?_
  have hk := contrEquiv1_symm_val dot_S12800x32_S32x1_S12800x1_1_0_0_1_n_n 32 rfl rfl k
  have el : dot_S12800x32_S32x1_S12800x1_1_0_0_1_n_n.lhsIdx (ix2 p u)
      ((contrEquiv1 dot_S12800x32_S32x1_S12800x1_1_0_0_1_n_n 32 rfl rfl).symm k) = ix2 p k :=
    funext fun a => Fin.ext (by
      match a with
      | ⟨0, _⟩ => exact lhs1_0 _ _
      | ⟨1, _⟩ => exact (dot_S12800x32_S32x1_S12800x1_1_0_0_1_n_n.lhsIdx_val_of_single rfl _ _).trans hk)
  have er : dot_S12800x32_S32x1_S12800x1_1_0_0_1_n_n.rhsIdx (ix2 p u)
      ((contrEquiv1 dot_S12800x32_S32x1_S12800x1_1_0_0_1_n_n 32 rfl rfl).symm k) = ix2 k u :=
    funext fun a => Fin.ext (by
      match a with
      | ⟨0, _⟩ => exact (dot_S12800x32_S32x1_S12800x1_1_0_0_1_n_n.rhsIdx_val_of_single rfl _ _).trans hk
      | ⟨1, _⟩ => exact rhs1_1 _ _)
  rw [el, er]

/-! ## The sum over a row of one entry, and the layout forms -/

/-- The sum of a 12800 × 1 array along its second axis is, at row `p`, that row's one entry. -/
theorem rowsum (src : FVec Ideal S12800x1 .f32) (h : S12800x1.Reduces [1] S12800) (hφ : FKind.Formats .f32)
    (hacc : (0x00000000#32 : BitVec 32) = FKind.add.neutral .f32 hφ) (p : Fin 12800) :
    multiReduction .add [1] S12800 src 0x00000000#32 h hφ hacc (ix1 p) = src (ix2 p (0 : Fin 1)) :=
  (Cert.LibKeepdims.multiReduction_add_rows src 0x00000000#32 h hφ hacc p).trans
    (Fin.sum_univ_one fun c : Fin 1 => src (ix2 p c))

/-- The same with the accumulator's side condition spelt as an equation of words, the form in which a printed
    reduction carries it. -/
theorem rowsum_word (src : FVec Ideal S12800x1 .f32) (h : S12800x1.Reduces [1] S12800) (hφ : FKind.Formats .f32)
    (hacc : (0x00000000#32 : BitVec 32) = 0x00000000#32) (p : Fin 12800) :
    multiReduction .add [1] S12800 src 0x00000000#32 h hφ hacc (ix1 p) = src (ix2 p (0 : Fin 1)) :=
  rowsum src h hφ hacc p

/-- Per-row numbers viewed as a column: entry `(p, u)` is the number of row `p`. -/
theorem column (v : FVec Ideal S12800 .f32) (h : S12800.ShapeCasts S12800x1) (p : Fin 12800) (u : Fin 1) :
    shapeCast S12800x1 v h (ix2 p u) = v (ix1 p) :=
  Cert.LibKeepdims.shapeCast_a_a1_apply v h p u

/-- A 1 × 32 row repeated over 12800 rows. -/
theorem biasRow (v : FVec Ideal S1x32 .f32) (h : S1x32.Broadcasts S12800x32) (p : Fin 12800) (j : Fin 32) :
    broadcastTo S12800x32 v h (ix2 p j) = v (ix2 (0 : Fin 1) j) :=
  broadcastTo_1b_ab_apply v h p j

/-- A 1 × 1 scalar repeated over 12800 rows. -/
theorem scalarRow (v : FVec Ideal S1x1 .f32) (h : S1x1.Broadcasts S12800x1) (p : Fin 12800) (u : Fin 1) :
    broadcastTo S12800x1 v h (ix2 p u) = v (ix2 (0 : Fin 1) u) :=
  broadcastTo_1b_ab_apply v h p u

end Cert.KernelIdeal.Body

end
-- ==== Proof.Spec.lean ====
/-
  The edge network, one row at a time, over the extended reals.

  Every output row depends on one row of each of the two gathered feature arrays and on the weights:
  three dense layers, each followed by the positive part, a final dense layer into a single number, and a
  layer normalisation over that one number.  The first layer contracts the two feature rows, laid end to end,
  with a 64 × 32 matrix; a contraction over 64 terms is the contraction over the first 32 plus the contraction
  over the last 32, because addition of extended reals is commutative and associative (`sum_join`; no finiteness
  is needed).  The normalisation is written exactly as it is computed: the mean of the one number is the number
  divided by one, the variance the mean of the squared deviation, and the result
  `(h - mean) * rsqrt (variance + ε) * γ + β`.  The three float literals (zero, one, ε) are kept as binary words
  and never evaluated.
-/
import Idealize.ShloMosaic.PureOps.Ideal
import Idealize.ShloMosaic.Lib.ValueIdx

open scoped BigOperators

noncomputable section

namespace Cert.EdgeMlp

open Idealize.ShloMosaic Idealize.ShloMosaic.ValueIdx

/-- The float literal `0.0`, as its word. -/
abbrev zero : EReal := Ideal.ofBits .f32 0x00000000#32
/-- The float literal `1.0`, as its word. -/
abbrev one : EReal := Ideal.ofBits .f32 0x3F800000#32
/-- The float literal nearest `1e-5`, as its word. -/
abbrev eps : EReal := Ideal.ofBits .f32 0x3727C5AC#32

/-- The first hidden layer at unit `j`: the two feature rows against the two halves of the first weight
    matrix, the bias, the positive part. -/
def hid1 (a0 a1 : Fin 32 → EReal) (Wa Wb : Fin 32 → Fin 32 → EReal) (b : Fin 32 → EReal) (j : Fin 32) : EReal :=
  max ((∑ k : Fin 32, a0 k * Wa k j + ∑ k : Fin 32, a1 k * Wb k j) + b j) zero

/-- A later hidden layer at unit `j`: the previous activations against a 32 × 32 matrix, the bias, the
    positive part. -/
def hid (a : Fin 32 → EReal) (W : Fin 32 → Fin 32 → EReal) (b : Fin 32 → EReal) (j : Fin 32) : EReal :=
  max (∑ k : Fin 32, a k * W k j + b j) zero

/-- The last dense layer: one number per row. -/
def pre (a : Fin 32 → EReal) (w : Fin 32 → EReal) (b : EReal) : EReal :=
  ∑ k : Fin 32, a k * w k + b

/-- Layer normalisation of a single number `h` with scale `g` and shift `be`, as computed: the mean is
    `h / 1`, the variance `(h - mean)² / 1`. -/
def lnorm (h g be : EReal) : EReal :=
  (h - Ideal.div h one) * Ideal.rsqrt (Ideal.div ((h - Ideal.div h one) * (h - Ideal.div h one)) one + eps) * g + be

/-- One output row from its two feature rows and the weights. -/
def row (a0 a1 : Fin 32 → EReal) (Wa Wb : Fin 32 → Fin 32 → EReal) (b1 : Fin 32 → EReal)
    (W2 : Fin 32 → Fin 32 → EReal) (b2 : Fin 32 → EReal) (W3 : Fin 32 → Fin 32 → EReal) (b3 : Fin 32 → EReal)
    (w4 : Fin 32 → EReal) (b4 g be : EReal) : EReal :=
  lnorm (pre (hid (hid (hid1 a0 a1 Wa Wb b1) W2 b2) W3 b3) w4 b4) g be

/-- The row function depends only on the values of its arguments. -/
theorem row_congr {a0 a0' a1 a1' : Fin 32 → EReal} {Wa Wa' Wb Wb' : Fin 32 → Fin 32 → EReal} {b1 b1' : Fin 32 → EReal}
    {W2 W2' : Fin 32 → Fin 32 → EReal} {b2 b2' : Fin 32 → EReal} {W3 W3' : Fin 32 → Fin 32 → EReal} {b3 b3' : Fin 32 → EReal}
    {w4 w4' : Fin 32 → EReal} {b4 b4' g g' be be' : EReal}
    (h0 : ∀ k, a0 k = a0' k) (h1 : ∀ k, a1 k = a1' k) (ha : ∀ k j, Wa k j = Wa' k j) (hb : ∀ k j, Wb k j = Wb' k j)
    (hb1 : ∀ j, b1 j = b1' j) (h2 : ∀ k j, W2 k j = W2' k j) (hb2 : ∀ j, b2 j = b2' j) (h3 : ∀ k j, W3 k j = W3' k j)
    (hb3 : ∀ j, b3 j = b3' j) (h4 : ∀ k, w4 k = w4' k) (hb4 : b4 = b4') (hg : g = g') (hbe : be = be') :
    row a0 a1 Wa Wb b1 W2 b2 W3 b3 w4 b4 g be = row a0' a1' Wa' Wb' b1' W2' b2' W3' b3' w4' b4' g' be' := by
  obtain rfl : a0 = a0' := funext h0
  obtain rfl : a1 = a1' := funext h1
  obtain rfl : Wa = Wa' := funext fun k => funext (ha k)
  obtain rfl : Wb = Wb' := funext fun k => funext (hb k)
  obtain rfl : b1 = b1' := funext hb1
  obtain rfl : W2 = W2' := funext fun k => funext (h2 k)
  obtain rfl : b2 = b2' := funext hb2
  obtain rfl : W3 = W3' := funext fun k => funext (h3 k)
  obtain rfl : b3 = b3' := funext hb3
  obtain rfl : w4 = w4' := funext h4
  subst hb4 hg hbe
  rfl

/-- A contraction over 64 terms is the contraction over the first 32 plus the one over the last 32. -/
theorem sum_join (f : Fin 64 → EReal) :
    ∑ k : Fin 64, f k
      = ∑ k : Fin 32, f ⟨k.val, Nat.lt_of_lt_of_le k.isLt (by decide)⟩
        + ∑ k : Fin 32, f ⟨32 + k.val, Nat.add_lt_add_left k.isLt 32⟩ :=
  Fin.sum_univ_add (a := 32) (b := 32) f

/-- Row `e` of the result from the two gathered feature arrays (3 200 000 rows of 32 features each) and the
    weight arrays: the first weight matrix's rows 0–31 meet the first feature row, its rows 32–63 the second. -/
def rowAt (X0 X1 : (⟨2, ![3200000, 32]⟩ : Shape).Idx → EReal) (W1 : (⟨2, ![64, 32]⟩ : Shape).Idx → EReal)
    (b1 : (⟨1, ![32]⟩ : Shape).Idx → EReal) (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (W4 : (⟨2, ![32, 1]⟩ : Shape).Idx → EReal) (b4 g be : (⟨1, ![1]⟩ : Shape).Idx → EReal) (e : Fin 3200000) : EReal :=
  row (fun k => X0 (ix2 e k)) (fun k => X1 (ix2 e k))
    (fun k j => W1 (ix2 (⟨k.val, Nat.lt_of_lt_of_le k.isLt (by decide)⟩ : Fin 64) j))
    (fun k j => W1 (ix2 (⟨32 + k.val, Nat.add_lt_add_left k.isLt 32⟩ : Fin 64) j))
    (fun j => b1 (ix1 j)) (fun k j => W2 (ix2 k j)) (fun j => b2 (ix1 j)) (fun k j => W3 (ix2 k j)) (fun j => b3 (ix1 j))
    (fun k => W4 (ix2 k (0 : Fin 1))) (b4 (ix1 (0 : Fin 1))) (g (ix1 (0 : Fin 1))) (be (ix1 (0 : Fin 1)))

/-- The whole result, a 3 200 000 × 1 array: entry `(e, 0)` is row `e`. -/
def G (X0 X1 : (⟨2, ![3200000, 32]⟩ : Shape).Idx → EReal) (W1 : (⟨2, ![64, 32]⟩ : Shape).Idx → EReal)
    (b1 : (⟨1, ![32]⟩ : Shape).Idx → EReal) (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (W4 : (⟨2, ![32, 1]⟩ : Shape).Idx → EReal) (b4 g be : (⟨1, ![1]⟩ : Shape).Idx → EReal) :
    (⟨2, ![3200000, 1]⟩ : Shape).Idx → EReal :=
  fun i => rowAt X0 X1 W1 b1 W2 b2 W3 b3 W4 b4 g be ⟨(i 0).val, idx2_lt0 i⟩

/-- `G` at the index with coordinates `(e, u)`. -/
theorem G_ix2 (X0 X1 : (⟨2, ![3200000, 32]⟩ : Shape).Idx → EReal) (W1 : (⟨2, ![64, 32]⟩ : Shape).Idx → EReal)
    (b1 : (⟨1, ![32]⟩ : Shape).Idx → EReal) (W2 : (⟨2, ![32, 32]⟩ : Shape).Idx → EReal) (b2 : (⟨1, ![32]⟩ : Shape).Idx → EReal)
    (W3 : (⟨2, ![32, 32]⟩ : Shape).Idx → EReal) (b3 : (⟨1, ![32]⟩ : Shape).Idx → EReal)
    (W4 : (⟨2, ![32, 1]⟩ : Shape).Idx → EReal) (b4 g be : (⟨1, ![1]⟩ : Shape).Idx → EReal) (e : Fin 3200000) (u : Fin 1) :
    G X0 X1 W1 b1 W2 b2 W3 b3 W4 b4 g be (ix2 e u) = rowAt X0 X1 W1 b1 W2 b2 W3 b3 W4 b4 g be e := rfl

end Cert.EdgeMlp

end
-- ==== Proof.Payload.lean ====
/-
  What the kernel body stores, at a row of its block, over the extended reals.

  The body loads a 12800 × 32 block of each gathered feature array and the whole weight arrays, and stores a
  12800 × 1 block.  Its stored value at `(p, 0)` is the row function `Cert.EdgeMlp.row` of row `p` of the two
  feature blocks and of the weights: the two half-products of the first layer are summed, each bias row is
  repeated over the rows, each rounding to a narrower float format is the identity on the extended reals, each
  matrix product into a zero accumulator is the sum over the contracted axis, and the two sums of the
  normalisation run over a single column, so each is that column's entry.
-/
import proofs.«176208_j45509473468804_2_alg».proof.Proof.Gen.KernelIdeal.Skeleton
import proofs.«176208_j45509473468804_2_alg».proof.Proof.BodyOps
import proofs.«176208_j45509473468804_2_alg».proof.Proof.Spec

open scoped BigOperators

noncomputable section

namespace Cert.KernelIdeal.Body

open Cert.KernelIdeal Idealize.ShloMosaic Idealize.ShloMosaic.ValueIdx

/-- The reciprocal square root of an array at an index, on the extended reals. -/
theorem rsqrt_apply {s : Shape} {φ : FTy} (a : FVec Ideal s φ) (i : s.Idx) : rsqrt a i = Ideal.rsqrt (a i) := rfl

/-- THE STORED VALUE AT ROW `p`: the row function of the loaded blocks' row `p` and of the loaded weights.
    The pointwise operations and the layout forms are pushed to the index; a row sum appears only once the
    operations around it have been pushed through, hence the repetition. -/
theorem payload_eq (x0 x1 : FVec Ideal S12800x32 .bf16) (w1a w1b : FVec Ideal S32x32 .f32) (b1 : FVec Ideal S1x32 .f32)
    (w2 : FVec Ideal S32x32 .f32) (b2 : FVec Ideal S1x32 .f32) (w3 : FVec Ideal S32x32 .f32) (b3 : FVec Ideal S1x32 .f32)
    (w4 : FVec Ideal S32x1 .f32) (b4 g be : FVec Ideal S1x1 .f32) (p : Fin 12800) :
    Gen.k0_pay1 (F := Ideal) (Gen.k0_pay2 b3) (Gen.k0_pay3 x0 x1 w1a w1b b1 w2 b2 w3) w4 b4 g be (ix2 p (0 : Fin 1))
      = Cert.EdgeMlp.row (fun k => x0 (ix2 p k)) (fun k => x1 (ix2 p k)) (fun k j => w1a (ix2 k j)) (fun k j => w1b (ix2 k j))
          (fun j => b1 (ix2 (0 : Fin 1) j)) (fun k j => w2 (ix2 k j)) (fun j => b2 (ix2 (0 : Fin 1) j))
          (fun k j => w3 (ix2 k j)) (fun j => b3 (ix2 (0 : Fin 1) j))
          (fun k => w4 (ix2 k (0 : Fin 1))) (b4 (ix2 (0 : Fin 1) (0 : Fin 1))) (g (ix2 (0 : Fin 1) (0 : Fin 1)))
          (be (ix2 (0 : Fin 1) (0 : Fin 1))) := by
  unfold Gen.k0_pay1 Gen.k0_pay2 Gen.k0_pay3
  simp only [addf_apply, mulf_apply, subf_apply, divf_apply, maximumf_apply, truncf_apply, broadcast_apply, rsqrt_apply,
    shapeCast_self, mm32, mm1, column, biasRow, scalarRow, Ideal.ofBits_def]
  repeat (rw [rowsum_word]; simp only [addf_apply, mulf_apply, subf_apply, divf_apply, maximumf_apply, truncf_apply, broadcast_apply, rsqrt_apply,
    shapeCast_self, mm32, mm1, column, biasRow, scalarRow, Ideal.ofBits_def])
  rfl

end Cert.KernelIdeal.Body

end
-- ==== Proof.Blocks.lean ====
/-
  From blocks to the array: what the kernel's result array holds after the run.

  The grid has 250 points.  At point `t` the two feature windows hold rows `12800·t … 12800·t + 12799` of the
  gathered arrays, every weight window holds its whole array, and the output window's block is rows
  `12800·t … 12800·t + 12799` of the result.  So what point `t` writes back, at row `p` of its block, is the row
  function of row `12800·t + p` of the gathered arrays and of the weights — block `t` of the one array
  `Cert.EdgeMlp.G`.  Row `r` of the result lies in the block of point `r / 12800`, so the blocks cover the array
  and the array ends holding `G`.
-/
import proofs.«176208_j45509473468804_2_alg».proof.Proof.Gen.KernelIdeal.Value
import proofs.«176208_j45509473468804_2_alg».proof.Proof.Payload
import proofs.«176208_j45509473468804_2_alg».proof.Proof.HostSide
import proofs.«176208_j45509473468804_2_alg».proof.Proof.Spec

set_option maxRecDepth 16384

open scoped BigOperators

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the grid -/

theorem hz : (![0, 0] : Fin 2 → Nat) = fun _ => 0 := funext fun a => by fin_cases a <;> rfl

/-! The printed index maps, decided over the 250 points: the feature windows (0, 1) and the output window (13) are at
    block `t` along the rows and block 0 along the columns; every weight window (2–12) is at block 0 on both axes. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

theorem t_lt (t : Fin cfg0.N) : t.val < 250 := lt_of_lt_of_eq t.isLt N_0

/-- The array row that row `p` of point `t`'s block is. -/
def rowOf (t : Fin cfg0.N) (p : Fin 12800) : Fin 3200000 :=
  ⟨t.val * 12800 + p.val, by have := t_lt t; have := p.isLt; omega⟩

/-! ## What each window's block holds at a point -/

/-- Row `p` of the first feature window's block at point `t` is row `12800·t + p` of the first gathered array. -/
theorem feat0 (c : Dev nD) (t : Fin cfg0.N) (p : Fin 12800) (k : Fin 32) :
    iblk m c 0 t (ix2 p k) = (V m c main_v11 : S3200000x32.Idx → EReal) (ix2 (rowOf t p) k) := by
  obtain ⟨e0, e1⟩ := idx0 t
  show (V m c main_v11 : S3200000x32.Idx → EReal) (((cfg0.win 0).blk t).view.emb (ix2 p k)) = _
  refine congrArg (V m c main_v11 : S3200000x32.Idx → EReal) (funext fun a => Fin.ext ?_)
  match a with
  | ⟨0, _⟩ => exact (win0_0.rect_emb_val t _ 0).trans (by rw [e0]; rfl)
  | ⟨1, _⟩ => exact win0_0.rect_emb_val_of_index_zero t 1 e1 _

/-- Row `p` of the second feature window's block at point `t` is row `12800·t + p` of the second gathered array. -/
theorem feat1 (c : Dev nD) (t : Fin cfg0.N) (p : Fin 12800) (k : Fin 32) :
    iblk m c 1 t (ix2 p k) = (V m c main_v18 : S3200000x32.Idx → EReal) (ix2 (rowOf t p) k) := by
  obtain ⟨e0, e1⟩ := idx1 t
  show (V m c main_v18 : S3200000x32.Idx → EReal) (((cfg0.win 1).blk t).view.emb (ix2 p k)) = _
  refine congrArg (V m c main_v18 : S3200000x32.Idx → EReal) (funext fun a => Fin.ext ?_)
  match a with
  | ⟨0, _⟩ => exact (win0_1.rect_emb_val t _ 0).trans (by rw [e0]; rfl)
  | ⟨1, _⟩ => exact win0_1.rect_emb_val_of_index_zero t 1 e1 _

/-- Window 2 holds the upper half of the first weight matrix, whole, at every point. -/
theorem blk2 (c : Dev nD) (t : Fin cfg0.N) (k : Fin 32) (j : Fin 32) :
    iblk m c 2 t (ix2 k j) = (V m c main_v19 : S32x32.Idx → EReal) (ix2 k j) := by
  obtain ⟨e0, e1⟩ := idx2 t
  show (V m c main_v19 : S32x32.Idx → EReal) (((cfg0.win 2).blk t).view.emb (ix2 k j)) = _
  refine congrArg (V m c main_v19 : S32x32.Idx → EReal) (funext fun a => Fin.ext ?_)
  match a with
  | ⟨0, _⟩ => exact win0_2.rect_emb_val_of_index_zero t 0 e0 _
  | ⟨1, _⟩ => exact win0_2.rect_emb_val_of_index_zero t 1 e1 _

/-- Window 3 holds the lower half of the first weight matrix, whole. -/
theorem blk3 (c : Dev nD) (t : Fin cfg0.N) (k : Fin 32) (j : Fin 32) :
    iblk m c 3 t (ix2 k j) = (V m c main_v20 : S32x32.Idx → EReal) (ix2 k j) := by
  obtain ⟨e0, e1⟩ := idx3 t
  show (V m c main_v20 : S32x32.Idx → EReal) (((cfg0.win 3).blk t).view.emb (ix2 k j)) = _
  refine congrArg (V m c main_v20 : S32x32.Idx → EReal) (funext fun a => Fin.ext ?_)
  match a with
  | ⟨0, _⟩ => exact win0_3.rect_emb_val_of_index_zero t 0 e0 _
  | ⟨1, _⟩ => exact win0_3.rect_emb_val_of_index_zero t 1 e1 _

/-- Window 4 holds the first bias row, whole. -/
theorem blk4 (c : Dev nD) (t : Fin cfg0.N) (k : Fin 1) (j : Fin 32) :
    iblk m c 4 t (ix2 k j) = (V m c main_v21 : S1x32.Idx → EReal) (ix2 k j) := by
  obtain ⟨e0, e1⟩ := idx4 t
  show (V m c main_v21 : S1x32.Idx → EReal) (((cfg0.win 4).blk t).view.emb (ix2 k j)) = _
  refine congrArg (V m c main_v21 : S1x32.Idx → EReal) (funext fun a => Fin.ext ?_)
  match a with
  | ⟨0, _⟩ => exact win0_4.rect_emb_val_of_index_zero t 0 e0 _
  | ⟨1, _⟩ => exact win0_4.rect_emb_val_of_index_zero t 1 e1 _

/-- Window 5 holds the second weight matrix, whole. -/
theorem blk5 (c : Dev nD) (t : Fin cfg0.N) (k : Fin 32) (j : Fin 32) :
    iblk m c 5 t (ix2 k j) = (V m c main_arg4 : S32x32.Idx → EReal) (ix2 k j) := by
  obtain ⟨e0, e1⟩ := idx5 t
  show (V m c main_arg4 : S32x32.Idx → EReal) (((cfg0.win 5).blk t).view.emb (ix2 k j)) = _
  refine congrArg (V m c main_arg4 : S32x32.Idx → EReal) (funext fun a => Fin.ext ?_)
  match a with
  | ⟨0, _⟩ => exact win0_5.rect_emb_val_of_index_zero t 0 e0 _
  | ⟨1, _⟩ => exact win0_5.rect_emb_val_of_index_zero t 1 e1 _

/-- Window 6 holds the second bias row, whole. -/
theorem blk6 (c : Dev nD) (t : Fin cfg0.N) (k : Fin 1) (j : Fin 32) :
    iblk m c 6 t (ix2 k j) = (V m c main_v22 : S1x32.Idx → EReal) (ix2 k j) := by
  obtain ⟨e0, e1⟩ := idx6 t
  show (V m c main_v22 : S1x32.Idx → EReal) (((cfg0.win 6).blk t).view.emb (ix2 k j)) = _
  refine congrArg (V m c main_v22 : S1x32.Idx → EReal) (funext fun a => Fin.ext ?_)
  match a with
  | ⟨0, _⟩ => exact win0_6.rect_emb_val_of_index_zero t 0 e0 _
  | ⟨1, _⟩ => exact win0_6.rect_emb_val_of_index_zero t 1 e1 _

/-- Window 7 holds the third weight matrix, whole. -/
theorem blk7 (c : Dev nD) (t : Fin cfg0.N) (k : Fin 32) (j : Fin 32) :
    iblk m c 7 t (ix2 k j) = (V m c main_arg6 : S32x32.Idx → EReal) (ix2 k j) := by
  obtain ⟨e0, e1⟩ := idx7 t
  show (V m c main_arg6 : S32x32.Idx → EReal) (((cfg0.win 7).blk t).view.emb (ix2 k j)) = _
  refine congrArg (V m c main_arg6 : S32x32.Idx → EReal) (funext fun a => Fin.ext ?_)
  match a with
  | ⟨0, _⟩ => exact win0_7.rect_emb_val_of_index_zero t 0 e0 _
  | ⟨1, _⟩ => exact win0_7.rect_emb_val_of_index_zero t 1 e1 _

/-- Window 8 holds the third bias row, whole. -/
theorem blk8 (c : Dev nD) (t : Fin cfg0.N) (k : Fin 1) (j : Fin 32) :
    iblk m c 8 t (ix2 k j) = (V m c main_v23 : S1x32.Idx → EReal) (ix2 k j) := by
  obtain ⟨e0, e1⟩ := idx8 t
  show (V m c main_v23 : S1x32.Idx → EReal) (((cfg0.win 8).blk t).view.emb (ix2 k j)) = _
  refine congrArg (V m c main_v23 : S1x32.Idx → EReal) (funext fun a => Fin.ext ?_)
  match a with
  | ⟨0, _⟩ => exact win0_8.rect_emb_val_of_index_zero t 0 e0 _
  | ⟨1, _⟩ => exact win0_8.rect_emb_val_of_index_zero t 1 e1 _

/-- Window 9 holds the last weight column, whole. -/
theorem blk9 (c : Dev nD) (t : Fin cfg0.N) (k : Fin 32) (j : Fin 1) :
    iblk m c 9 t (ix2 k j) = (V m c main_arg8 : S32x1.Idx → EReal) (ix2 k j) := by
  obtain ⟨e0, e1⟩ := idx9 t
  show (V m c main_arg8 : S32x1.Idx → EReal) (((cfg0.win 9).blk t).view.emb (ix2 k j)) = _
  refine congrArg (V m c main_arg8 : S32x1.Idx → EReal) (funext fun a => Fin.ext ?_)
  match a with
  | ⟨0, _⟩ => exact win0_9.rect_emb_val_of_index_zero t 0 e0 _
  | ⟨1, _⟩ => exact win0_9.rect_emb_val_of_index_zero t 1 e1 _

/-- Window 10 holds the last bias, whole. -/
theorem blk10 (c : Dev nD) (t : Fin cfg0.N) (k : Fin 1) (j : Fin 1) :
    iblk m c 10 t (ix2 k j) = (V m c main_v24 : S1x1.Idx → EReal) (ix2 k j) := by
  obtain ⟨e0, e1⟩ := idx10 t
  show (V m c main_v24 : S1x1.Idx → EReal) (((cfg0.win 10).blk t).view.emb (ix2 k j)) = _
  refine congrArg (V m c main_v24 : S1x1.Idx → EReal) (funext fun a => Fin.ext ?_)
  match a with
  | ⟨0, _⟩ => exact win0_10.rect_emb_val_of_index_zero t 0 e0 _
  | ⟨1, _⟩ => exact win0_10.rect_emb_val_of_index_zero t 1 e1 _

/-- Window 11 holds the normalisation's scale, whole. -/
theorem blk11 (c : Dev nD) (t : Fin cfg0.N) (k : Fin 1) (j : Fin 1) :
    iblk m c 11 t (ix2 k j) = (V m c main_v25 : S1x1.Idx → EReal) (ix2 k j) := by
  obtain ⟨e0, e1⟩ := idx11 t
  show (V m c main_v25 : S1x1.Idx → EReal) (((cfg0.win 11).blk t).view.emb (ix2 k j)) = _
  refine congrArg (V m c main_v25 : S1x1.Idx → EReal) (funext fun a => Fin.ext ?_)
  match a with
  | ⟨0, _⟩ => exact win0_11.rect_emb_val_of_index_zero t 0 e0 _
  | ⟨1, _⟩ => exact win0_11.rect_emb_val_of_index_zero t 1 e1 _

/-- Window 12 holds the normalisation's shift, whole. -/
theorem blk12 (c : Dev nD) (t : Fin cfg0.N) (k : Fin 1) (j : Fin 1) :
    iblk m c 12 t (ix2 k j) = (V m c main_v26 : S1x1.Idx → EReal) (ix2 k j) := by
  obtain ⟨e0, e1⟩ := idx12 t
  show (V m c main_v26 : S1x1.Idx → EReal) (((cfg0.win 12).blk t).view.emb (ix2 k j)) = _
  refine congrArg (V m c main_v26 : S1x1.Idx → EReal) (funext fun a => Fin.ext ?_)
  match a with
  | ⟨0, _⟩ => exact win0_12.rect_emb_val_of_index_zero t 0 e0 _
  | ⟨1, _⟩ => exact win0_12.rect_emb_val_of_index_zero t 1 e1 _

/-! ## What a point writes back -/

/-- The result array: `Cert.EdgeMlp.G` of the two gathered arrays as the region finds them and of the weight
    arguments. -/
abbrev GK (c : Dev nD) : S3200000x1.Idx → EReal :=
  Cert.EdgeMlp.G (V m c main_v11) (V m c main_v18) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- WHAT POINT `t` WRITES BACK is block `t` of the result array `GK`: at row `p` of the block, the stored value is the
    row function of the blocks' row `p` (`payload_eq`), the feature blocks' row `p` is row `12800·t + p` of the gathered
    arrays, and each weight block is its whole array. -/
theorem flushed_eq (c : Dev nD) (t : Fin cfg0.N) :
    (dats m 0 c).flushed 13 t = ((cfg0.win 13).blk t).view.read (Elt Ideal) (GK m c) := by
  rw [Value.flushed13]
  unfold out0_13
  rw [View.canon_unit_zero hz]
  simp only [View.ld_unit_zero (S := S12800x32) hz, View.ld_unit_zero (S := S32x32) hz, View.ld_unit_zero (S := S1x32) hz,
    View.ld_unit_zero (S := S32x1) hz, View.ld_unit_zero (S := S1x1) hz]
  funext y
  -- the block's index `y` is `(p, 0)` for the row `p` of the block it names
  have hu : (y 1).val = 0 := by have h1 : (y 1).val < 1 := (y 1).isLt; omega
  have hy : (win0 13).xinj (grid0.coords t) y = ix2 (⟨(y 0).val, (y 0).isLt⟩ : Fin 12800) (0 : Fin 1) :=
    funext fun a => Fin.ext (by match a with | ⟨0, _⟩ => rfl | ⟨1, _⟩ => exact hu)
  -- and it sits at row `12800·t + p` of the array
  obtain ⟨e0, e1⟩ := idx13 t
  have hemb : ((cfg0.win 13).blk t).view.emb y = ix2 (rowOf t ⟨(y 0).val, (y 0).isLt⟩) (0 : Fin 1) :=
    funext fun a => Fin.ext (by
      match a with
      | ⟨0, _⟩ => exact (win0_13.rect_emb_val t y 0).trans (by rw [e0]; rfl)
      | ⟨1, _⟩ => exact (win0_13.rect_emb_val_of_index_zero t 1 e1 y).trans hu)
  refine (congrArg (k0_pay1 (F := Ideal) (k0_pay2 (iblk m c 8 t)) (k0_pay3 (iblk m c 0 t) (iblk m c 1 t) (iblk m c 2 t) (iblk m c 3 t) (iblk m c 4 t) (iblk m c 5 t) (iblk m c 6 t) (iblk m c 7 t))
    (iblk m c 9 t) (iblk m c 10 t) (iblk m c 11 t) (iblk m c 12 t)) hy).trans ?_
  refine (Cert.KernelIdeal.Body.payload_eq (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) ⟨(y 0).val, (y 0).isLt⟩).trans ?_
  refine Eq.trans ?_ (congrArg (GK m c) hemb).symm
  rw [GK, Cert.EdgeMlp.G_ix2]
  unfold Cert.EdgeMlp.rowAt
  exact Cert.EdgeMlp.row_congr
    (fun k => feat0 m c t _ k) (fun k => feat1 m c t _ k)
    (fun k j => (blk2 m c t k j).trans (Host.upper_apply m c k j))
    (fun k j => (blk3 m c t k j).trans (Host.lower_apply m c k j))
    (fun j => (blk4 m c t 0 j).trans (Host.bias1_apply m c 0 j))
    (fun k j => (blk5 m c t k j).trans (congrFun (V_main_arg4 m c) (ix2 k j)))
    (fun j => (blk6 m c t 0 j).trans (Host.bias2_apply m c 0 j))
    (fun k j => (blk7 m c t k j).trans (congrFun (V_main_arg6 m c) (ix2 k j)))
    (fun j => (blk8 m c t 0 j).trans (Host.bias3_apply m c 0 j))
    (fun k => (blk9 m c t k 0).trans (congrFun (V_main_arg8 m c) (ix2 k (0 : Fin 1))))
    ((blk10 m c t 0 0).trans (Host.bias4_apply m c 0 0))
    ((blk11 m c t 0 0).trans (Host.scale_apply m c 0 0))
    ((blk12 m c t 0 0).trans (Host.shift_apply m c 0 0))

/-! ## The blocks cover the array -/

/-- An index of the result is in point `t`'s block iff each coordinate is in the block's range on its axis. -/
theorem mem_blk (t : Fin cfg0.N) (i : S3200000x1.Idx) :
    i ∈ ((cfg0.win 13).blk t).view.set ↔ ∀ a : Fin 2, win0_13.index t a * S12800x1.size a ≤ (i a).val
      ∧ (i a).val < win0_13.index t a * S12800x1.size a + S12800x1.size a := by
  show i ∈ ((View.whole main_v27).slice (win0_13.rect t)).set ↔ _
  rw [View.set_slice_whole, Rect.mem_set_unit]
  exact Iff.rfl

/-- Row `r` of the result lies in the block of point `r / 12800`. -/
theorem cover (i : S3200000x1.Idx) :
    ∃ t : Fin cfg0.N, (cfg0.win 13).flush t = true ∧ i ∈ ((cfg0.win 13).blk t).view.set := by
  have hi0 : (i 0).val < 3200000 := (i 0).isLt
  have hi1 : (i 1).val < 1 := (i 1).isLt
  obtain ⟨t, ht⟩ : ∃ t : Fin cfg0.N, t.val = (i 0).val / 12800 :=
    ⟨⟨(i 0).val / 12800, lt_of_lt_of_eq (by omega) N_0.symm⟩, rfl⟩
  obtain ⟨e0, e1⟩ := idx13 t
  refine ⟨t, flush0_13 t, ?_⟩
  rw [mem_blk]
  intro a
  match a with
  | ⟨0, _⟩ =>
    show win0_13.index t (0 : Fin 2) * 12800 ≤ (i 0).val ∧ (i 0).val < win0_13.index t (0 : Fin 2) * 12800 + 12800
    rw [e0, ht]; omega
  | ⟨1, _⟩ =>
    show win0_13.index t (1 : Fin 2) * 1 ≤ (i 1).val ∧ (i 1).val < win0_13.index t (1 : Fin 2) * 1 + 1
    rw [e1]; omega

/-! ## The array after the run -/

/-- THE RESULT ARRAY after the run is `GK`. -/
theorem final (c : Dev nD) : (dats m 0 c).arrAt 13 cfg0.N = GK m c :=
  (dats m 0 c).arrAt_eq_of_cover 13 (GK m c) (fun t _ => flushed_eq m c t) cover

/-- The kernel program's run: every weakly fair execution terminates, the result array holds `GK` and the argument
    arrays are unchanged. -/
theorem run : θ_run defs (onTc (τ := τ) (main (F := Ideal))) ⟨m, fun _ => 0, ρ⟩ fun r => ∀ c : Dev nD,
      r.2.mem ((c : Thread nD τ).loc main_v27) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.Blocks

end
-- ==== Proof.RefSide.lean ====
/-
  The reference program's result, index by index, is the array `Cert.EdgeMlp.G` of its own two gathered
  feature arrays and of the weights.

  Each stage of the reference is read at an index through its generated read-at-an-index lemma.  The feature
  rows are laid end to end (64 entries) and contracted with the 64 × 32 first weight matrix; the contraction
  splits into the first 32 terms, which read the first gathered array, and the last 32, which read the second
  (`Cert.EdgeMlp.sum_join`).  The later layers are a contraction over 32 terms, a bias and the positive part;
  the normalisation's two sums run over a single column, so each is that column's entry, and their initial value
  is the float zero.
-/
import proofs.«176208_j45509473468804_2_alg».proof.Proof.Gen.ReferenceIdeal.Read
import proofs.«176208_j45509473468804_2_alg».proof.Proof.Spec
import Idealize.ShloMosaic.Lib.Pipeline.Value
import Idealize.ShloMosaic.Lib.ValueIdx
import Idealize.ShloMosaic.PureOps.Ideal.Laws

open scoped BigOperators

noncomputable section

namespace Cert.ReferenceIdeal.Bridge

open Cert.ReferenceIdeal Cert.ReferenceIdeal.Gen Cert.ReferenceIdeal.Read Idealize.ShloMosaic Idealize.ShloMosaic.ValueIdx

variable (x0 : (⟨S100000x32, .f32⟩ : BufTy).Contents (Elt Ideal)) (x1 : (⟨S2x3200000, .i32⟩ : BufTy).Contents (Elt Ideal))
  (x2 : (⟨S64x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 : (⟨S32x1, .f32⟩ : BufTy).Contents (Elt Ideal)) (x9 x10 x11 : (⟨S1, .f32⟩ : BufTy).Contents (Elt Ideal))

/-! ## The composed index maps, at an index given by coordinates -/

theorem l19 (e : Fin 3200000) (j : Fin 32) (k : Fin 64) : lidx_main_v19 (ix2 e j) k = ix2 e k :=
  funext fun a => by match a with | ⟨0, _⟩ => rfl | ⟨1, _⟩ => rfl
theorem r19 (e : Fin 3200000) (j : Fin 32) (k : Fin 64) : ridx_main_v19 (ix2 e j) k = ix2 k j :=
  funext fun a => by match a with | ⟨0, _⟩ => rfl | ⟨1, _⟩ => rfl
theorem b21 (e : Fin 3200000) (j : Fin 32) : idx_main_v20 (idx_main_v21 (ix2 e j)) = ix1 j :=
  funext fun a => by match a with | ⟨0, _⟩ => rfl
theorem l24 (e : Fin 3200000) (j k : Fin 32) : lidx_main_v24 (ix2 e j) k = ix2 e k :=
  funext fun a => by match a with | ⟨0, _⟩ => rfl | ⟨1, _⟩ => rfl
theorem r24 (e : Fin 3200000) (j k : Fin 32) : ridx_main_v24 (ix2 e j) k = ix2 k j :=
  funext fun a => by match a with | ⟨0, _⟩ => rfl | ⟨1, _⟩ => rfl
theorem b26 (e : Fin 3200000) (j : Fin 32) : idx_main_v25 (idx_main_v26 (ix2 e j)) = ix1 j :=
  funext fun a => by match a with | ⟨0, _⟩ => rfl
theorem l29 (e : Fin 3200000) (j k : Fin 32) : lidx_main_v29 (ix2 e j) k = ix2 e k :=
  funext fun a => by match a with | ⟨0, _⟩ => rfl | ⟨1, _⟩ => rfl
theorem r29 (e : Fin 3200000) (j k : Fin 32) : ridx_main_v29 (ix2 e j) k = ix2 k j :=
  funext fun a => by match a with | ⟨0, _⟩ => rfl | ⟨1, _⟩ => rfl
theorem b31 (e : Fin 3200000) (j : Fin 32) : idx_main_v30 (idx_main_v31 (ix2 e j)) = ix1 j :=
  funext fun a => by match a with | ⟨0, _⟩ => rfl
theorem l34 (e : Fin 3200000) (u : Fin 1) (k : Fin 32) : lidx_main_v34 (ix2 e u) k = ix2 e k :=
  funext fun a => by match a with | ⟨0, _⟩ => rfl | ⟨1, _⟩ => rfl
theorem r34 (e : Fin 3200000) (u : Fin 1) (k : Fin 32) : ridx_main_v34 (ix2 e u) k = ix2 k u :=
  funext fun a => by match a with | ⟨0, _⟩ => rfl | ⟨1, _⟩ => rfl
theorem b36 (e : Fin 3200000) (u : Fin 1) : idx_main_v35 (idx_main_v36 (ix2 e u)) = ix1 (0 : Fin 1) :=
  funext fun a => by match a with | ⟨0, _⟩ => rfl
theorem i39 (e : Fin 3200000) (u : Fin 1) : idx_main_v39 (ix2 e u) = ix1 e :=
  funext fun a => by match a with | ⟨0, _⟩ => rfl
theorem i38 (e : Fin 3200000) (k : Fin 1) : idx_main_v38 (ix1 e) k = ix2 e k :=
  funext fun a => by match a with | ⟨0, _⟩ => rfl | ⟨1, _⟩ => rfl
theorem i45 (e : Fin 3200000) (u : Fin 1) : idx_main_v45 (ix2 e u) = ix1 e :=
  funext fun a => by match a with | ⟨0, _⟩ => rfl
theorem i44 (e : Fin 3200000) (k : Fin 1) : idx_main_v44 (ix1 e) k = ix2 e k :=
  funext fun a => by match a with | ⟨0, _⟩ => rfl | ⟨1, _⟩ => rfl
theorem b54 (e : Fin 3200000) (u : Fin 1) : idx_main_v53 (idx_main_v54 (ix2 e u)) = ix1 (0 : Fin 1) :=
  funext fun a => by match a with | ⟨0, _⟩ => rfl
theorem b57 (e : Fin 3200000) (u : Fin 1) : idx_main_v56 (idx_main_v57 (ix2 e u)) = ix1 (0 : Fin 1) :=
  funext fun a => by match a with | ⟨0, _⟩ => rfl

/-! ## The two feature rows laid end to end -/

/-- Entry `k < 32` of a joined row is entry `k` of the first gathered array's row. -/
theorem joined_left (e : Fin 3200000) (k : Fin 32) (h : k.val < 64) :
    val_main_v18 (F := Ideal) x0 x1 (ix2 e (⟨k.val, h⟩ : Fin 64)) = val_main_v8 (F := Ideal) x0 x1 (ix2 e k) := by
  unfold val_main_v18
  exact concatenate_pair_apply_left (t := S3200000x64) (s₁ := S3200000x32) (s₂ := S3200000x32) (1 : Fin S3200000x64.rank) _ _ _ _ rfl (ix2 e k)
    (fun b => by match b with | ⟨0, _⟩ => rfl | ⟨1, _⟩ => rfl)

/-- Entry `32 + k` of a joined row is entry `k` of the second gathered array's row. -/
theorem joined_right (e : Fin 3200000) (k : Fin 32) (h : 32 + k.val < 64) :
    val_main_v18 (F := Ideal) x0 x1 (ix2 e (⟨32 + k.val, h⟩ : Fin 64)) = val_main_v17 (F := Ideal) x0 x1 (ix2 e k) := by
  unfold val_main_v18
  exact concatenate_pair_apply_right (t := S3200000x64) (s₁ := S3200000x32) (s₂ := S3200000x32) (1 : Fin S3200000x64.rank) _ _ _ _ rfl rfl (ix2 e k)
    (fun b hb => by match b with | ⟨0, _⟩ => rfl | ⟨1, _⟩ => exact absurd rfl hb)
    (by show k.val + 32 = 32 + k.val; omega)

/-! ## The layers -/

/-- The first hidden layer of row `e`. -/
theorem layer1 (e : Fin 3200000) (j : Fin 32) :
    val_main_v23 (F := Ideal) x0 x1 x2 x3 (ix2 e j)
      = Cert.EdgeMlp.hid1 (fun k => val_main_v8 (F := Ideal) x0 x1 (ix2 e k)) (fun k => val_main_v17 (F := Ideal) x0 x1 (ix2 e k))
          (fun k j => x2 (ix2 (⟨k.val, Nat.lt_of_lt_of_le k.isLt (by decide)⟩ : Fin 64) j))
          (fun k j => x2 (ix2 (⟨32 + k.val, Nat.add_lt_add_left k.isLt 32⟩ : Fin 64) j)) (fun j => x3 (ix1 j)) j := by
  rw [val_main_v23_apply, val_main_v22_apply, val_main_v19_apply, val_main_v21_apply, val_main_v20_apply,
    val_main_call0_v0_apply, val_main_call0_cst_apply]
  simp only [l19, r19, b21]
  rw [Cert.EdgeMlp.sum_join]
  simp only [joined_left, joined_right]
  rfl

/-- The second hidden layer of row `e`. -/
theorem layer2 (e : Fin 3200000) (j : Fin 32) :
    val_main_v28 (F := Ideal) x0 x1 x2 x3 x4 x5 (ix2 e j)
      = Cert.EdgeMlp.hid (fun k => val_main_v23 (F := Ideal) x0 x1 x2 x3 (ix2 e k)) (fun k j => x4 (ix2 k j)) (fun j => x5 (ix1 j)) j := by
  rw [val_main_v28_apply, val_main_v27_apply, val_main_v24_apply, val_main_v26_apply, val_main_v25_apply,
    val_main_call1_v0_apply, val_main_call1_cst_apply]
  simp only [l24, r24, b26]
  rfl

/-- The third hidden layer of row `e`. -/
theorem layer3 (e : Fin 3200000) (j : Fin 32) :
    val_main_v33 (F := Ideal) x0 x1 x2 x3 x4 x5 x6 x7 (ix2 e j)
      = Cert.EdgeMlp.hid (fun k => val_main_v28 (F := Ideal) x0 x1 x2 x3 x4 x5 (ix2 e k)) (fun k j => x6 (ix2 k j)) (fun j => x7 (ix1 j)) j := by
  rw [val_main_v33_apply, val_main_v32_apply, val_main_v29_apply, val_main_v31_apply, val_main_v30_apply,
    val_main_call2_v0_apply, val_main_call2_cst_apply]
  simp only [l29, r29, b31]
  rfl

/-- The last dense layer of row `e`: one number. -/
theorem layer4 (e : Fin 3200000) (u : Fin 1) :
    val_main_v37 (F := Ideal) x0 x1 x2 x3 x4 x5 x6 x7 x8 x9 (ix2 e u)
      = Cert.EdgeMlp.pre (fun k => val_main_v33 (F := Ideal) x0 x1 x2 x3 x4 x5 x6 x7 (ix2 e k)) (fun k => x8 (ix2 k u)) (x9 (ix1 (0 : Fin 1))) := by
  rw [val_main_v37_apply, val_main_v34_apply, val_main_v36_apply, val_main_v35_apply]
  simp only [l34, r34, b36]
  rfl

/-- The normalisation of row `e`'s number. -/
theorem tail (e : Fin 3200000) :
    val_main_v58 (F := Ideal) x0 x1 x2 x3 x4 x5 x6 x7 x8 x9 x10 x11 (ix2 e (0 : Fin 1))
      = Cert.EdgeMlp.lnorm (val_main_v37 (F := Ideal) x0 x1 x2 x3 x4 x5 x6 x7 x8 x9 (ix2 e (0 : Fin 1))) (x10 (ix1 (0 : Fin 1))) (x11 (ix1 (0 : Fin 1))) := by
  simp only [val_main_v58_apply, val_main_v57_apply, val_main_v56_apply, val_main_v55_apply, val_main_v54_apply,
    val_main_v53_apply, val_main_v52_apply, val_main_v51_apply, val_main_v50_apply, val_main_v49_apply, val_main_cst_6_apply,
    val_main_v48_apply, val_main_v47_apply, val_main_v46_apply, val_main_cst_5_apply, val_main_v45_apply, val_main_v44_apply,
    val_main_cst_4_apply, val_main_v43_apply, val_main_v42_apply, val_main_v41_apply, val_main_v40_apply, val_main_cst_3_apply,
    val_main_v39_apply, val_main_v38_apply, val_main_cst_apply,
    i39, i38, i45, i44, b54, b57, Fin.sum_univ_one, Ideal.ofBits_def, Ideal.ofBits_zero_f32, zero_add]
  rfl

/-! ## The whole result -/

/-- THE REFERENCE'S RESULT is `G` of its two gathered arrays and the weights. -/
theorem ref_eq :
    val_main_v58 (F := Ideal) x0 x1 x2 x3 x4 x5 x6 x7 x8 x9 x10 x11
      = Cert.EdgeMlp.G (val_main_v8 (F := Ideal) x0 x1) (val_main_v17 (F := Ideal) x0 x1) x2 x3 x4 x5 x6 x7 x8 x9 x10 x11 := by
  funext i
  obtain ⟨e, u, rfl⟩ : ∃ (e : Fin 3200000) (u : Fin 1), i = ix2 e u := ⟨i 0, i 1, eq_ix2 i⟩
  obtain rfl : u = 0 := Subsingleton.elim u 0
  rw [Cert.EdgeMlp.G_ix2, tail, layer4]
  unfold Cert.EdgeMlp.rowAt Cert.EdgeMlp.row
  simp only [layer3, layer2, layer1]

end Cert.ReferenceIdeal.Bridge

end
-- ==== Proof.lean ====
/-
  The edge network computed by the tiled kernel is the reference's.

  For each of 3 200 000 edges the program gathers the 32 features of the edge's two endpoints, passes them
  through three dense layers with the positive part and a last dense layer into one number, and normalises that
  number over its single-entry axis.  The kernel processes 12 800 edges per grid point and multiplies the two
  feature rows separately with the two halves of the first weight matrix; the reference lays the rows end to end
  and multiplies once with the whole matrix.

  On the extended reals both end with the same array, `Cert.EdgeMlp.G` of the two gathered feature arrays and the
  weights: the kernel because every grid point writes its block of `G` and the 250 blocks cover the array
  (`Cert.KernelIdeal.Blocks.run`); the reference because each of its stages, read at an index, is the matching
  stage of the row function, a contraction over 64 terms being the sum of the contractions over its two halves
  (`Cert.ReferenceIdeal.Bridge.ref_eq`).  The two programs gather with the same wrapped indices from the same
  node features, rounding to a narrower float format being the identity on the extended reals, so their gathered
  arrays are one term (`Cert.KernelIdeal.Host.gathered0`, `gathered1`).  Only associativity and commutativity of
  addition are used; the finiteness of the inputs is not.

  The three frames are the programs' runs with the results dropped, and the kernel's idealization rewrote no
  operation, so it has nothing to preserve.
-/
import proofs.«176208_j45509473468804_2_alg».proof.Defs
import proofs.«176208_j45509473468804_2_alg».proof.Proof.Gen.Kernel
import proofs.«176208_j45509473468804_2_alg».proof.Proof.Gen.Kernel.Skeleton
import proofs.«176208_j45509473468804_2_alg».proof.Proof.Gen.Kernel.Launch
import proofs.«176208_j45509473468804_2_alg».proof.Proof.Gen.Kernel.Points
import proofs.«176208_j45509473468804_2_alg».proof.Proof.Gen.Kernel.Frame
import proofs.«176208_j45509473468804_2_alg».proof.Proof.Gen.KernelIdeal
import proofs.«176208_j45509473468804_2_alg».proof.Proof.Gen.KernelIdeal.Skeleton
import proofs.«176208_j45509473468804_2_alg».proof.Proof.Gen.KernelIdeal.Launch
import proofs.«176208_j45509473468804_2_alg».proof.Proof.Gen.KernelIdeal.Points
import proofs.«176208_j45509473468804_2_alg».proof.Proof.Gen.KernelIdeal.Frame
import proofs.«176208_j45509473468804_2_alg».proof.Proof.Gen.ReferenceIdeal
import proofs.«176208_j45509473468804_2_alg».proof.Proof.Gen.Pre_finite_inputs
import proofs.«176208_j45509473468804_2_alg».proof.Proof.Gen.KernelIdeal.Value
import proofs.«176208_j45509473468804_2_alg».proof.Proof.Gen.ReferenceIdeal.Run
import proofs.«176208_j45509473468804_2_alg».proof.Proof.Gen.ReferenceIdeal.Read
import proofs.«176208_j45509473468804_2_alg».proof.Proof.HostSide
import proofs.«176208_j45509473468804_2_alg».proof.Proof.Blocks
import proofs.«176208_j45509473468804_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the array `G` of the gathered feature arrays
    and the weights. -/
theorem algebraic : Cert.algebraic_KernelIdeal_ReferenceIdeal := by
  intro m ρ m' ρ' _ hagree
  refine ⟨fun c => Cert.KernelIdeal.Blocks.GK m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v58_eq, Cert.ReferenceIdeal.Bridge.ref_eq, h0, h1, h2, h3, h4, h5, h6, h7, h8, h9, h10, h11]
  show _ = Cert.KernelIdeal.Blocks.GK m c
  unfold Cert.KernelIdeal.Blocks.GK
  rw [Cert.KernelIdeal.Host.gathered0 m c, Cert.KernelIdeal.Host.gathered1 m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
